-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x16 : Shape := ⟨2, ![128, 16]⟩
abbrev S16 : Shape := ⟨1, ![16]⟩
abbrev S16x128 : Shape := ⟨2, ![16, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  bcast_S_S16x128 : S_.BroadcastsInDim S16x128 (![] : Fin 0 → Fin S16x128.rank)
  reducesTo_S16x128_S_d0_1 : S16x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S16x128 1) : IVec S_ 1 :=
  let main_c_5 : IVec S_ 1 := constantI S_ 1 1#1
  let main_v17 : IVec S_ 1 := (fun x v => Host.reduce IntOp.andi x v reducesTo_S16x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x16 .f32) (main_arg3 : FVec F S16 .f32) (main_arg4 : FVec F S16x128 .f32) (main_arg5 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x16 .f32 := Host.absf main_arg2
  let main_cst_0 : FVec F S_ .f32 := constant S_ .f32 0x7F800000#32
  let main_v5 : FVec F S128x16 .f32 := broadcastInDim S128x16 ![] bcast_S_S128x16 main_cst_0
  let main_v6 : IVec S128x16 1 := cmpf .olt main_v4 main_v5
  let main_c_1 : IVec S_ 1 := constantI S_ 1 1#1
  let main_v7 : IVec S_ 1 := (fun x v => Host.reduce IntOp.andi x v reducesTo_S128x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x128 .f32 := Host.absf main_arg4
  let main_cst_4 : FVec F S_ .f32 := constant S_ .f32 0x7F800000#32
  let main_v15 : FVec F S16x128 .f32 := broadcastInDim S16x128 ![] bcast_S_S16x128 main_cst_4
  let main_v16 : IVec S16x128 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x16 : Shape := ⟨2, ![128, 16]⟩
abbrev S16 : Shape := ⟨1, ![16]⟩
abbrev S16x128 : Shape := ⟨2, ![16, 128]⟩
abbrev S128 : Shape := ⟨1, ![128]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x16 : Shape := ⟨2, ![100000, 16]⟩
abbrev S5000x128 : Shape := ⟨2, ![5000, 128]⟩
abbrev S5000x16 : Shape := ⟨2, ![5000, 16]⟩
abbrev S1700000x16 : Shape := ⟨2, ![1700000, 16]⟩
abbrev S1x16 : Shape := ⟨2, ![1, 16]⟩
abbrev S1700000x128 : Shape := ⟨2, ![1700000, 128]⟩
abbrev S1x128 : Shape := ⟨2, ![1, 128]⟩

abbrev nBuf : Space → Nat
  | .hbm => 86
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x16, .f32⟩
  | .hbm, ⟨3, _⟩ => ⟨S16, .f32⟩
  | .hbm, ⟨4, _⟩ => ⟨S16x128, .f32⟩
  | .hbm, ⟨5, _⟩ => ⟨S128, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000, .i32⟩
  | .hbm, ⟨11, _⟩ => ⟨S1700000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S1700000, .i32⟩
  | .hbm, ⟨32, _⟩ => ⟨S1700000, .i1⟩
  | .hbm, ⟨33, _⟩ => ⟨S_, .i32⟩
  | .hbm, ⟨34, _⟩ => ⟨S1700000, .i32⟩
  | .hbm, ⟨35, _⟩ => ⟨S1700000, .i32⟩
  | .hbm, ⟨36, _⟩ => ⟨S1700000, .i32⟩
  | .hbm, ⟨37, _⟩ => ⟨S1700000x1, .i32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S1700000x1, .f32⟩
  | .hbm, ⟨50, _⟩ => ⟨S100000x16, .f32⟩
  | .hbm, ⟨51, _⟩ => ⟨S_, .i32⟩
  | .hbm, ⟨52, _⟩ => ⟨S1700000, .i32⟩
  | .hbm, ⟨53, _⟩ => ⟨S1700000, .i1⟩
  | .hbm, ⟨54, _⟩ => ⟨S_, .i32⟩
  | .hbm, ⟨55, _⟩ => ⟨S1700000, .i32⟩
  | .hbm, ⟨56, _⟩ => ⟨S1700000, .i32⟩
  | .hbm, ⟨57, _⟩ => ⟨S1700000, .i32⟩
  | .hbm, ⟨58, _⟩ => ⟨S1700000x1, .i32⟩
  | .hbm, ⟨59, _⟩ => ⟨S1700000x16, .f32⟩
  | .hbm, ⟨60, _⟩ => ⟨S1700000x16, .f32⟩
  | .hbm, ⟨61, _⟩ => ⟨S1700000x16, .f32⟩
  | .hbm, ⟨62, _⟩ => ⟨S_, .f32⟩
  | .hbm, ⟨63, _⟩ => ⟨S100000x16, .f32⟩
  | .hbm, ⟨64, _⟩ => ⟨S1700000x1, .i32⟩
  | .hbm, ⟨65, _⟩ => ⟨S100000x16, .f32⟩
  | .hbm, ⟨66, _⟩ => ⟨S1x16, .f32⟩
  | .hbm, ⟨67, _⟩ => ⟨S100000x16, .f32⟩
  | .hbm, ⟨68, _⟩ => ⟨S100000x128, .f32⟩
  | .hbm, ⟨69, _⟩ => ⟨S_, .i32⟩
  | .hbm, ⟨70, _⟩ => ⟨S1700000, .i32⟩
  | .hbm, ⟨71, _⟩ => ⟨S1700000, .i1⟩
  | .hbm, ⟨72, _⟩ => ⟨S_, .i32⟩
  | .hbm, ⟨73, _⟩ => ⟨S1700000, .i32⟩
  | .hbm, ⟨74, _⟩ => ⟨S1700000, .i32⟩
  | .hbm, ⟨75, _⟩ => ⟨S1700000, .i32⟩
  | .hbm, ⟨76, _⟩ => ⟨S1700000x1, .i32⟩
  | .hbm, ⟨77, _⟩ => ⟨S1700000x128, .f32⟩
  | .hbm, ⟨78, _⟩ => ⟨S1700000x128, .f32⟩
  | .hbm, ⟨79, _⟩ => ⟨S1700000x128, .f32⟩
  | .hbm, ⟨80, _⟩ => ⟨S_, .f32⟩
  | .hbm, ⟨81, _⟩ => ⟨S100000x128, .f32⟩
  | .hbm, ⟨82, _⟩ => ⟨S1700000x1, .i32⟩
  | .hbm, ⟨83, _⟩ => ⟨S100000x128, .f32⟩
  | .hbm, ⟨84, _⟩ => ⟨S1x128, .f32⟩
  | .hbm, ⟨85, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x16, .f32⟩
  | .local _ .vmem, ⟨3, _⟩ => ⟨S5000x16, .f32⟩
  | .local _ .vmem, ⟨4, _⟩ => ⟨S5000x16, .f32⟩
  | .local _ .vmem, ⟨5, _⟩ => ⟨S5000x16, .f32⟩
  | .local _ .vmem, ⟨6, _⟩ => ⟨S5000x16, .f32⟩
  | .local _ .vmem, ⟨7, _⟩ => ⟨S1x16, .f32⟩
  | .local _ .vmem, ⟨8, _⟩ => ⟨S5000x16, .f32⟩
  | .local _ .vmem, ⟨9, _⟩ => ⟨S5000x16, .f32⟩
  | .local _ .vmem, ⟨10, _⟩ => ⟨S5000x16, .f32⟩
  | .local _ .vmem, ⟨11, _⟩ => ⟨S5000x16, .f32⟩
  | .local _ .vmem, ⟨12, _⟩ => ⟨S16x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_c_8 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_c_11 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_12 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S16x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x16_S128x16_0_0 : ∀ a, (![0, 0] : Fin 2 → Nat) a + S128x16.size a ≤ S128x16.size a
  h_S128x16 : 0 < S128x16.numel
  inb_S5000x16_S5000x16_0_0 : ∀ a, (![0, 0] : Fin 2 → Nat) a + S5000x16.size a ≤ S5000x16.size a
  h_S5000x16 : 0 < S5000x16.numel
  bcast_S1700000x1_S1700000x16_0_1 : S1700000x1.BroadcastsInDim S1700000x16 (![0, 1] : Fin 2 → Fin S1700000x16.rank)
  bcast_S_S100000x16 : S_.BroadcastsInDim S100000x16 (![] : Fin 0 → Fin S100000x16.rank)
  shapeCasts_S16_S1x16 : S16.ShapeCasts S1x16
  shapeCasts_S5000x16_S5000x16 : S5000x16.ShapeCasts S5000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  inb_S16x128_S16x128_0_0 : ∀ a, (![0, 0] : Fin 2 → Nat) a + S16x128.size a ≤ S16x128.size a
  h_S16x128 : 0 < S16x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x16_S5000x16_1_0_0_1_n_n_wf : DotDims.WF S5000x128 S128x16 S5000x16 [1] [0] [0] [1] [] []
  gather_S100000x16_S1700000x1_S1700000x16_1_0_n_n_0_1_116_wf : GatherDims.WF S100000x16 S1700000x1 S1700000x16 [1] [0] [] [0] [] 1 ![1, 16]
  scatter_S100000x16_S1700000x1_S1700000x16_1_0_0_1_wf : ScatterDims.WF S100000x16 S1700000x1 S1700000x16 [1] [0] [0] 1
  dot_S5000x16_S16x128_S5000x128_1_0_0_1_n_n_wf : DotDims.WF S5000x16 S16x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x16.size a ≤ S128x16.size a
  hwx0_1 : ∀ i : grid0.Coords, EltTy.bits .f32 = 32 ∨ (Rect.block (s := S128x16) S128x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x16.size a ≤ S100000x16.size a
  hwx0_2 : ∀ i : grid0.Coords, EltTy.bits .f32 = 32 ∨ (Rect.block (s := S100000x16) S5000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x16.size a ≤ S100000x16.size a
  hwx1_0 : ∀ i : grid1.Coords, EltTy.bits .f32 = 32 ∨ (Rect.block (s := S100000x16) S5000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x16.size a ≤ S1x16.size a
  hwx1_1 : ∀ i : grid1.Coords, EltTy.bits .f32 = 32 ∨ (Rect.block (s := S1x16) S1x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x16.size a ≤ S100000x16.size a
  hwx1_2 : ∀ i : grid1.Coords, EltTy.bits .f32 = 32 ∨ (Rect.block (s := S100000x16) S5000x16.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x16.size a ≤ S100000x16.size a
  hwx2_0 : ∀ i : grid2.Coords, EltTy.bits .f32 = 32 ∨ (Rect.block (s := S100000x16) S5000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S16x128.size a ≤ S16x128.size a
  hwx2_1 : ∀ i : grid2.Coords, EltTy.bits .f32 = 32 ∨ (Rect.block (s := S16x128) S16x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S100000x128.size a
  hwx3_2 : ∀ i : grid3.Coords, EltTy.bits .f32 = 32 ∨ (Rect.block (s := S100000x128) S5000x128.size (cc3_transform_2 i) (hinb3_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x16_S5000x16_1_0_0_1_n_n : DotDims S5000x128 S128x16 S5000x16 where
  lhsContracting := [1]
  rhsContracting := [0]
  lhsNonContracting := [0]
  rhsNonContracting := [1]
  lhsBatch := []
  rhsBatch := []
  wf := dot_S5000x128_S128x16_S5000x16_1_0_0_1_n_n_wf
def gather_S100000x16_S1700000x1_S1700000x16_1_0_n_n_0_1_116 : GatherDims S100000x16 S1700000x1 S1700000x16 where
  offsetDims := [1]
  collapsedSliceDims := [0]
  operandBatchingDims := []
  startIndicesBatchingDims := []
  startIndexMap := [0]
  indexVectorDim := 1
  sliceSizes := ![1, 16]
  wf := gather_S100000x16_S1700000x1_S1700000x16_1_0_n_n_0_1_116_wf
def scatter_S100000x16_S1700000x1_S1700000x16_1_0_0_1 : ScatterDims S100000x16 S1700000x1 S1700000x16 where
  updateWindowDims := [1]
  insertedWindowDims := [0]
  scatterDimsToOperandDims := [0]
  indexVectorDim := 1
  wf := scatter_S100000x16_S1700000x1_S1700000x16_1_0_0_1_wf
def dot_S5000x16_S16x128_S5000x128_1_0_0_1_n_n : DotDims S5000x16 S16x128 S5000x128 where
  lhsContracting := [1]
  rhsContracting := [0]
  lhsNonContracting := [0]
  rhsNonContracting := [1]
  lhsBatch := []
  rhsBatch := []
  wf := dot_S5000x16_S16x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S5000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S5000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S5000x16.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v47) S5000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S16x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v60) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v61) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v62) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x16 : Shape := ⟨2, ![128, 16]⟩
abbrev S16 : Shape := ⟨1, ![16]⟩
abbrev S16x128 : Shape := ⟨2, ![16, 128]⟩
abbrev S128 : Shape := ⟨1, ![128]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x16 : Shape := ⟨2, ![100000, 16]⟩
abbrev S1700000x16 : Shape := ⟨2, ![1700000, 16]⟩
abbrev S1x16 : Shape := ⟨2, ![1, 16]⟩
abbrev S1700000x128 : Shape := ⟨2, ![1700000, 128]⟩
abbrev S1x128 : Shape := ⟨2, ![1, 128]⟩

abbrev nBuf : Space → Nat
  | .hbm => 134
  | .vmem => 0
  | .smem => 0
  | _ => 0

abbrev hbmTy0_0 (i : Nat) : BufTy := match i % 128 with
  | 0 => ⟨S100000x128, .f32⟩
  | 1 => ⟨S2x1600000, .i32⟩
  | 2 => ⟨S128x16, .f32⟩
  | 3 => ⟨S16, .f32⟩
  | 4 => ⟨S16x128, .f32⟩
  | 5 => ⟨S128, .f32⟩
  | 6 => ⟨S1x1600000, .i32⟩
  | 7 => ⟨S1600000, .i32⟩
  | 8 => ⟨S1x1600000, .i32⟩
  | 9 => ⟨S1600000, .i32⟩
  | 10 => ⟨S100000, .i32⟩
  | 11 => ⟨S1700000, .i32⟩
  | 12 => ⟨S1700000, .i32⟩
  | 13 => ⟨S_, .f32⟩
  | 14 => ⟨S1700000, .f32⟩
  | 15 => ⟨S_, .f32⟩
  | 16 => ⟨S100000, .f32⟩
  | 17 => ⟨S1700000x1, .i32⟩
  | 18 => ⟨S100000, .f32⟩
  | 19 => ⟨S_, .f32⟩
  | 20 => ⟨S100000, .f32⟩
  | 21 => ⟨S100000, .i1⟩
  | 22 => ⟨S100000, .f32⟩
  | 23 => ⟨S_, .f32⟩
  | 24 => ⟨S100000, .f32⟩
  | 25 => ⟨S100000, .f32⟩
  | 26 => ⟨S_, .f32⟩
  | 27 => ⟨S_, .f32⟩
  | 28 => ⟨S100000, .f32⟩
  | 29 => ⟨S100000, .f32⟩
  | 30 => ⟨S_, .i32⟩
  | 31 => ⟨S1700000, .i32⟩
  | 32 => ⟨S1700000, .i1⟩
  | 33 => ⟨S_, .i32⟩
  | 34 => ⟨S1700000, .i32⟩
  | 35 => ⟨S1700000, .i32⟩
  | 36 => ⟨S1700000, .i32⟩
  | 37 => ⟨S1700000x1, .i32⟩
  | 38 => ⟨S1700000, .f32⟩
  | 39 => ⟨S_, .i32⟩
  | 40 => ⟨S1700000, .i32⟩
  | 41 => ⟨S1700000, .i1⟩
  | 42 => ⟨S_, .i32⟩
  | 43 => ⟨S1700000, .i32⟩
  | 44 => ⟨S1700000, .i32⟩
  | 45 => ⟨S1700000, .i32⟩
  | 46 => ⟨S1700000x1, .i32⟩
  | 47 => ⟨S1700000, .f32⟩
  | 48 => ⟨S1700000, .f32⟩
  | 49 => ⟨S100000x16, .f32⟩
  | 50 => ⟨S_, .i32⟩
  | 51 => ⟨S1700000, .i32⟩
  | 52 => ⟨S1700000, .i1⟩
  | 53 => ⟨S_, .i32⟩
  | 54 => ⟨S1700000, .i32⟩
  | 55 => ⟨S1700000, .i32⟩
  | 56 => ⟨S1700000, .i32⟩
  | 57 => ⟨S1700000x1, .i32⟩
  | 58 => ⟨S1700000x16, .f32⟩
  | 59 => ⟨S1700000x1, .f32⟩
  | 60 => ⟨S1700000x16, .f32⟩
  | 61 => ⟨S1700000x16, .f32⟩
  | 62 => ⟨S_, .f32⟩
  | 63 => ⟨S100000x16, .f32⟩
  | 64 => ⟨S1700000x1, .i32⟩
  | 65 => ⟨S100000x16, .f32⟩
  | 66 => ⟨S1x16, .f32⟩
  | 67 => ⟨S100000x16, .f32⟩
  | 68 => ⟨S100000x16, .f32⟩
  | 69 => ⟨S_, .f32⟩
  | 70 => ⟨S100000x16, .f32⟩
  | 71 => ⟨S100000x16, .f32⟩
  | 72 => ⟨S100000, .i32⟩
  | 73 => ⟨S1700000, .i32⟩
  | 74 => ⟨S1700000, .i32⟩
  | 75 => ⟨S_, .f32⟩
  | 76 => ⟨S1700000, .f32⟩
  | 77 => ⟨S_, .f32⟩
  | 78 => ⟨S100000, .f32⟩
  | 79 => ⟨S1700000x1, .i32⟩
  | 80 => ⟨S100000, .f32⟩
  | 81 => ⟨S_, .f32⟩
  | 82 => ⟨S100000, .f32⟩
  | 83 => ⟨S100000, .i1⟩
  | 84 => ⟨S100000, .f32⟩
  | 85 => ⟨S_, .f32⟩
  | 86 => ⟨S100000, .f32⟩
  | 87 => ⟨S100000, .f32⟩
  | 88 => ⟨S_, .f32⟩
  | 89 => ⟨S_, .f32⟩
  | 90 => ⟨S100000, .f32⟩
  | 91 => ⟨S100000, .f32⟩
  | 92 => ⟨S_, .i32⟩
  | 93 => ⟨S1700000, .i32⟩
  | 94 => ⟨S1700000, .i1⟩
  | 95 => ⟨S_, .i32⟩
  | 96 => ⟨S1700000, .i32⟩
  | 97 => ⟨S1700000, .i32⟩
  | 98 => ⟨S1700000, .i32⟩
  | 99 => ⟨S1700000x1, .i32⟩
  | 100 => ⟨S1700000, .f32⟩
  | 101 => ⟨S_, .i32⟩
  | 102 => ⟨S1700000, .i32⟩
  | 103 => ⟨S1700000, .i1⟩
  | 104 => ⟨S_, .i32⟩
  | 105 => ⟨S1700000, .i32⟩
  | 106 => ⟨S1700000, .i32⟩
  | 107 => ⟨S1700000, .i32⟩
  | 108 => ⟨S1700000x1, .i32⟩
  | 109 => ⟨S1700000, .f32⟩
  | 110 => ⟨S1700000, .f32⟩
  | 111 => ⟨S100000x128, .f32⟩
  | 112 => ⟨S_, .i32⟩
  | 113 => ⟨S1700000, .i32⟩
  | 114 => ⟨S1700000, .i1⟩
  | 115 => ⟨S_, .i32⟩
  | 116 => ⟨S1700000, .i32⟩
  | 117 => ⟨S1700000, .i32⟩
  | 118 => ⟨S1700000, .i32⟩
  | 119 => ⟨S1700000x1, .i32⟩
  | 120 => ⟨S1700000x128, .f32⟩
  | 121 => ⟨S1700000x1, .f32⟩
  | 122 => ⟨S1700000x128, .f32⟩
  | 123 => ⟨S1700000x128, .f32⟩
  | 124 => ⟨S_, .f32⟩
  | 125 => ⟨S100000x128, .f32⟩
  | 126 => ⟨S1700000x1, .i32⟩
  | 127 => ⟨S100000x128, .f32⟩
  | _ => ⟨S100000x128, .f32⟩

abbrev hbmTy0_1 (i : Nat) : BufTy := match i % 128 with
  | 0 => ⟨S1x128, .f32⟩
  | 1 => ⟨S100000x128, .f32⟩
  | 2 => ⟨S100000x128, .f32⟩
  | 3 => ⟨S_, .f32⟩
  | 4 => ⟨S100000x128, .f32⟩
  | 5 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_10 : Ref sig .tc := ⟨.hbm, 75, rfl⟩
abbrev main_v53 : Ref sig .tc := ⟨.hbm, 76, rfl⟩
abbrev main_cst_11 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_12 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_13 : Ref sig .tc := ⟨.hbm, 85, rfl⟩
abbrev main_v60 : Ref sig .tc := ⟨.hbm, 86, rfl⟩
abbrev main_v61 : Ref sig .tc := ⟨.hbm, 87, rfl⟩
abbrev main_cst_14 : Ref sig .tc := ⟨.hbm, 88, rfl⟩
abbrev main_call2_v0 : Ref sig .tc := ⟨.hbm, 89, rfl⟩
abbrev main_call2_v1 : Ref sig .tc := ⟨.hbm, 90, rfl⟩
abbrev main_v62 : Ref sig .tc := ⟨.hbm, 91, rfl⟩
abbrev main_c_15 : Ref sig .tc := ⟨.hbm, 92, rfl⟩
abbrev main_v63 : Ref sig .tc := ⟨.hbm, 93, rfl⟩
abbrev main_v64 : Ref sig .tc := ⟨.hbm, 94, rfl⟩
abbrev main_c_16 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_c_17 : Ref sig .tc := ⟨.hbm, 101, rfl⟩
abbrev main_v70 : Ref sig .tc := ⟨.hbm, 102, rfl⟩
abbrev main_v71 : Ref sig .tc := ⟨.hbm, 103, rfl⟩
abbrev main_c_18 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_c_19 : Ref sig .tc := ⟨.hbm, 112, rfl⟩
abbrev main_v79 : Ref sig .tc := ⟨.hbm, 113, rfl⟩
abbrev main_v80 : Ref sig .tc := ⟨.hbm, 114, rfl⟩
abbrev main_c_20 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_cst_21 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_call3_cst : Ref sig .tc := ⟨.hbm, 131, rfl⟩
abbrev main_call3_v0 : Ref sig .tc := ⟨.hbm, 132, rfl⟩
abbrev main_v95 : Ref sig .tc := ⟨.hbm, 133, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x16_0_1 : S1700000x1.BroadcastsInDim S1700000x16 (![0, 1] : Fin 2 → Fin S1700000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x16_S100000x16_1_0_0_1_n_n_wf : DotDims.WF S100000x128 S128x16 S100000x16 [1] [0] [0] [1] [] []
  gather_S100000x16_S1700000x1_S1700000x16_1_0_n_n_0_1_116_wf : GatherDims.WF S100000x16 S1700000x1 S1700000x16 [1] [0] [] [0] [] 1 ![1, 16]
  scatter_S100000x16_S1700000x1_S1700000x16_1_0_0_1_wf : ScatterDims.WF S100000x16 S1700000x1 S1700000x16 [1] [0] [0] 1
  dot_S100000x16_S16x128_S100000x128_1_0_0_1_n_n_wf : DotDims.WF S100000x16 S16x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x16_S100000x16_1_0_0_1_n_n : DotDims S100000x128 S128x16 S100000x16 where
  lhsContracting := [1]
  rhsContracting := [0]
  lhsNonContracting := [0]
  rhsNonContracting := [1]
  lhsBatch := []
  rhsBatch := []
  wf := dot_S100000x128_S128x16_S100000x16_1_0_0_1_n_n_wf
def gather_S100000x16_S1700000x1_S1700000x16_1_0_n_n_0_1_116 : GatherDims S100000x16 S1700000x1 S1700000x16 where
  offsetDims := [1]
  collapsedSliceDims := [0]
  operandBatchingDims := []
  startIndicesBatchingDims := []
  startIndexMap := [0]
  indexVectorDim := 1
  sliceSizes := ![1, 16]
  wf := gather_S100000x16_S1700000x1_S1700000x16_1_0_n_n_0_1_116_wf
def scatter_S100000x16_S1700000x1_S1700000x16_1_0_0_1 : ScatterDims S100000x16 S1700000x1 S1700000x16 where
  updateWindowDims := [1]
  insertedWindowDims := [0]
  scatterDimsToOperandDims := [0]
  indexVectorDim := 1
  wf := scatter_S100000x16_S1700000x1_S1700000x16_1_0_0_1_wf
def dot_S100000x16_S16x128_S100000x128_1_0_0_1_n_n : DotDims S100000x16 S16x128 S100000x128 where
  lhsContracting := [1]
  rhsContracting := [0]
  lhsNonContracting := [0]
  rhsNonContracting := [1]
  lhsBatch := []
  rhsBatch := []
  wf := dot_S100000x16_S16x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

class Facts : Prop extends Facts₀ where

variable [Facts]
-- ==== Proof.Payloads.lean ====
/-
  What one grid point of each of the four kernels computes, read at one entry of its 5000-row block.
  The two product kernels convert both operands to bf16 before the MXU product into a zero accumulator; over the
  extended reals a change of float format is the identity and the product into zero is the plain sum, so entry
  (p, q) of the block is the sum over the shared axis of row p of the left block against column q of the weights.
  The two bias kernels add the one-row bias to every row and clamp below at zero.
-/
import proofs.«157085_j30726196036175_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.ValueIdx

/-- Coordinate 0 of the left operand's index is the output row. -/
theorem product_first_l0 (i : S5000x16.Idx) (q : dot_S5000x128_S128x16_S5000x16_1_0_0_1_n_n.contr.Idx) : (dot_S5000x128_S128x16_S5000x16_1_0_0_1_n_n.lhsIdx i q 0).val = (i 0).val := by
  unfold DotDims.lhsIdx
  rw [dif_neg (show ¬(0 : Fin S5000x128.rank) ∈ dot_S5000x128_S128x16_S5000x16_1_0_0_1_n_n.lhsBatch by decide), dif_pos (show (0 : Fin S5000x128.rank) ∈ dot_S5000x128_S128x16_S5000x16_1_0_0_1_n_n.lhsNonContracting by decide)]
  rfl
/-- Coordinate 1 of the right operand's index is the output column. -/
theorem product_first_r1 (i : S5000x16.Idx) (q : dot_S5000x128_S128x16_S5000x16_1_0_0_1_n_n.contr.Idx) : (dot_S5000x128_S128x16_S5000x16_1_0_0_1_n_n.rhsIdx i q 1).val = (i 1).val := by
  unfold DotDims.rhsIdx
  rw [dif_neg (show ¬(1 : Fin S128x16.rank) ∈ dot_S5000x128_S128x16_S5000x16_1_0_0_1_n_n.rhsBatch by decide), dif_pos (show (1 : Fin S128x16.rank) ∈ dot_S5000x128_S128x16_S5000x16_1_0_0_1_n_n.rhsNonContracting by decide)]
  rfl

/-- LAYER 1's product: entry (p, q) of a 5000×128 block of node features times the 128×16 weights is the sum over the 128 input features. -/
theorem product_first (x : Vec Ideal S5000x128 .f32) (w : Vec Ideal S128x16 .f32) (p : Fin 5000) (q : Fin 16) :
    k0_pay1 (F := Ideal) x w (ix2 p q) = ∑ k : Fin 128, x (ix2 p k) * w (ix2 k q) := by
  unfold k0_pay1
  refine (Ideal.matmul_constant_zero_apply dot_S5000x128_S128x16_S5000x16_1_0_0_1_n_n none _ _ (ix2 p q)).trans ?_
  rw [← Equiv.sum_comp (contrEquiv1 dot_S5000x128_S128x16_S5000x16_1_0_0_1_n_n 128 rfl rfl).symm]
  refine Finset.sum_congr rfl fun k _ => ?_
  have hk := contrEquiv1_symm_val dot_S5000x128_S128x16_S5000x16_1_0_0_1_n_n 128 rfl rfl k
  have el : dot_S5000x128_S128x16_S5000x16_1_0_0_1_n_n.lhsIdx (ix2 p q) ((contrEquiv1 dot_S5000x128_S128x16_S5000x16_1_0_0_1_n_n 128 rfl rfl).symm k) = ix2 p k := funext fun a => Fin.ext (by
    match a with
    | ⟨0, _⟩ => exact product_first_l0 _ _
    | ⟨1, _⟩ => exact (dot_S5000x128_S128x16_S5000x16_1_0_0_1_n_n.lhsIdx_val_of_single rfl _ _).trans hk)
  have er : dot_S5000x128_S128x16_S5000x16_1_0_0_1_n_n.rhsIdx (ix2 p q) ((contrEquiv1 dot_S5000x128_S128x16_S5000x16_1_0_0_1_n_n 128 rfl rfl).symm k) = ix2 k q := funext fun a => Fin.ext (by
    match a with
    | ⟨0, _⟩ => exact (dot_S5000x128_S128x16_S5000x16_1_0_0_1_n_n.rhsIdx_val_of_single rfl _ _).trans hk
    | ⟨1, _⟩ => exact product_first_r1 _ _)
  rw [el, er]
  rfl

/-- Coordinate 0 of the left operand's index is the output row. -/
theorem product_second_l0 (i : S5000x128.Idx) (q : dot_S5000x16_S16x128_S5000x128_1_0_0_1_n_n.contr.Idx) : (dot_S5000x16_S16x128_S5000x128_1_0_0_1_n_n.lhsIdx i q 0).val = (i 0).val := by
  unfold DotDims.lhsIdx
  rw [dif_neg (show ¬(0 : Fin S5000x16.rank) ∈ dot_S5000x16_S16x128_S5000x128_1_0_0_1_n_n.lhsBatch by decide), dif_pos (show (0 : Fin S5000x16.rank) ∈ dot_S5000x16_S16x128_S5000x128_1_0_0_1_n_n.lhsNonContracting by decide)]
  rfl
/-- Coordinate 1 of the right operand's index is the output column. -/
theorem product_second_r1 (i : S5000x128.Idx) (q : dot_S5000x16_S16x128_S5000x128_1_0_0_1_n_n.contr.Idx) : (dot_S5000x16_S16x128_S5000x128_1_0_0_1_n_n.rhsIdx i q 1).val = (i 1).val := by
  unfold DotDims.rhsIdx
  rw [dif_neg (show ¬(1 : Fin S16x128.rank) ∈ dot_S5000x16_S16x128_S5000x128_1_0_0_1_n_n.rhsBatch by decide), dif_pos (show (1 : Fin S16x128.rank) ∈ dot_S5000x16_S16x128_S5000x128_1_0_0_1_n_n.rhsNonContracting by decide)]
  rfl

/-- LAYER 2's product: entry (p, q) of a 5000×16 block of hidden features times the 16×128 weights is the sum over the 16 hidden features. -/
theorem product_second (x : Vec Ideal S5000x16 .f32) (w : Vec Ideal S16x128 .f32) (p : Fin 5000) (q : Fin 128) :
    k2_pay1 (F := Ideal) x w (ix2 p q) = ∑ k : Fin 16, x (ix2 p k) * w (ix2 k q) := by
  unfold k2_pay1
  refine (Ideal.matmul_constant_zero_apply dot_S5000x16_S16x128_S5000x128_1_0_0_1_n_n none _ _ (ix2 p q)).trans ?_
  rw [← Equiv.sum_comp (contrEquiv1 dot_S5000x16_S16x128_S5000x128_1_0_0_1_n_n 16 rfl rfl).symm]
  refine Finset.sum_congr rfl fun k _ => ?_
  have hk := contrEquiv1_symm_val dot_S5000x16_S16x128_S5000x128_1_0_0_1_n_n 16 rfl rfl k
  have el : dot_S5000x16_S16x128_S5000x128_1_0_0_1_n_n.lhsIdx (ix2 p q) ((contrEquiv1 dot_S5000x16_S16x128_S5000x128_1_0_0_1_n_n 16 rfl rfl).symm k) = ix2 p k := funext fun a => Fin.ext (by
    match a with
    | ⟨0, _⟩ => exact product_second_l0 _ _
    | ⟨1, _⟩ => exact (dot_S5000x16_S16x128_S5000x128_1_0_0_1_n_n.lhsIdx_val_of_single rfl _ _).trans hk)
  have er : dot_S5000x16_S16x128_S5000x128_1_0_0_1_n_n.rhsIdx (ix2 p q) ((contrEquiv1 dot_S5000x16_S16x128_S5000x128_1_0_0_1_n_n 16 rfl rfl).symm k) = ix2 k q := funext fun a => Fin.ext (by
    match a with
    | ⟨0, _⟩ => exact (dot_S5000x16_S16x128_S5000x128_1_0_0_1_n_n.rhsIdx_val_of_single rfl _ _).trans hk
    | ⟨1, _⟩ => exact product_second_r1 _ _)
  rw [el, er, shapeCast_self]
  rfl

/-- LAYER 1's bias and clamp: entry (p, q) is the aggregated value plus the bias of column q, clamped below at zero. -/
theorem bias_relu_first (x : Vec Ideal S5000x16 .f32) (b : Vec Ideal S1x16 .f32) (p : Fin 5000) (q : Fin 16) :
    k1_pay1 (F := Ideal) x b (ix2 p q) = max (x (ix2 p q) + b (ix2 (0 : Fin 1) q)) (Ideal.ofBits .f32 0x00000000#32) := by
  unfold k1_pay1
  refine (maximumf_apply _ _ _).trans ?_
  refine congrArg₂ max ?_ rfl
  refine (addf_apply _ _ _).trans ?_
  refine congrArg₂ (· + ·) ?_ ?_
  · rw [shapeCast_self]
  · rw [shapeCast_self]
    exact broadcastTo_1b_ab_apply b _ p q

/-- LAYER 2's bias and clamp: entry (p, q) is the aggregated value plus the bias of column q, clamped below at zero. -/
theorem bias_relu_second (x : Vec Ideal S5000x128 .f32) (b : Vec Ideal S1x128 .f32) (p : Fin 5000) (q : Fin 128) :
    k3_pay1 (F := Ideal) x b (ix2 p q) = max (x (ix2 p q) + b (ix2 (0 : Fin 1) q)) (Ideal.ofBits .f32 0x00000000#32) := by
  unfold k3_pay1
  refine (maximumf_apply _ _ _).trans ?_
  refine congrArg₂ max ?_ rfl
  refine (addf_apply _ _ _).trans ?_
  refine congrArg₂ (· + ·) ?_ ?_
  · rw [shapeCast_self]
  · rw [shapeCast_self]
    exact broadcastTo_1b_ab_apply b _ p q

end Cert.KernelIdeal.Payload

end
-- ==== Proof.Region0.lean ====
/-
  The first product call read as one array: twenty grid points, each writing back the product of one 5000-row block of
  the node features with the whole first-layer weights; the blocks tile the 100000 rows, so the array after the call is
  the whole product, entry (n, q) the sum over the 128 input features of x[n, k] · W1[k, q].
-/
import proofs.«157085_j30726196036175_1_alg».proof.Proof.Gen.KernelIdeal.Frame
import proofs.«157085_j30726196036175_1_alg».proof.Proof.Payloads
import Idealize.ShloMosaic.Lib.Pipeline.Value
import Idealize.ShloMosaic.Lib.ValueIdx

set_option maxRecDepth 16384

noncomputable section

namespace Cert.KernelIdeal.Blocks

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The first layer's linear map as one array: entry (n, q) is the sum over the 128 input features of x[n, k] · W[k, q]. -/
def productFirst (x : Vec Ideal S100000x128 .f32) (w : Vec Ideal S128x16 .f32) : Vec Ideal S100000x16 .f32 :=
  fun i => ∑ k : Fin 128, x (ix2 (⟨(i 0).val, (i 0).isLt⟩ : Fin 100000) k) * w (ix2 k (⟨(i 1).val, (i 1).isLt⟩ : Fin 16))

/-- The three index maps of this call over its twenty grid points: point t takes row block t of the left operand and of the
    result, and the whole weights. -/
theorem index_maps0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- One point, over plain blocks: if `x0` is row block `r` of `X` and `x1` is all of `W`, the point's product at (p, q)
    is the whole product at (5000 r + p, q). -/
theorem point0 (X : Vec Ideal S100000x128 .f32) (W : Vec Ideal S128x16 .f32) (x0 : Vec Ideal S5000x128 .f32) (x1 : Vec Ideal S128x16 .f32)
    (r : Nat) (hx0 : ∀ (p : Fin 5000) (k : Fin 128) (i : S100000x128.Idx), (i 0).val = r * 5000 + p.val → (i 1).val = k.val → x0 (ix2 p k) = X i)
    (hx1 : ∀ (k : Fin 128) (q : Fin 16), x1 (ix2 k q) = W (ix2 k q))
    (p : Fin 5000) (q : Fin 16) (i : S100000x16.Idx) (hi0 : (i 0).val = r * 5000 + p.val) (hi1 : (i 1).val = q.val) :
    k0_pay1 (F := Ideal) x0 x1 (ix2 p q) = productFirst X W i := by
  refine (Payload.product_first x0 x1 p q).trans ?_
  unfold productFirst
  refine Finset.sum_congr rfl fun k _ => ?_
  rw [hx0 p k (ix2 (⟨(i 0).val, (i 0).isLt⟩ : Fin 100000) k) hi0 rfl, hx1 k q]
  refine congrArg (fun z => X _ * W z) ?_
  funext a; apply Fin.ext
  match a with
  | ⟨0, _⟩ => rfl
  | ⟨1, _⟩ => exact hi1.symm

/-- What point t writes back is block t of the whole product of the two arrays as the call finds them. -/
theorem flushed0 (c : Dev nD) (t : Fin cfg0.N) :
    (dat0 V c).flushed 2 t = ((cfg0.win 2).blk t).view.read (Elt Ideal) (productFirst (V c main_arg0) (V c main_arg2)) := by
  show (cfg0.win 2).cut (grid0.coords t) ((dat0 V c).after 2 t) = _
  rw [after0_2]
  unfold out0_2
  rw [View.canon_unit_zero zero_offsets]
  simp only [View.ld_unit_zero (S := S5000x128) zero_offsets, View.ld_unit_zero (S := S128x16) zero_offsets]
  obtain ⟨e0, e1, e2, e3, e4, e5⟩ := index_maps0 t
  refine funext fun (j : S5000x16.Idx) => ?_
  obtain ⟨p, q, rfl⟩ : ∃ (p : Fin 5000) (q : Fin 16), j = ix2 p q := ⟨j 0, j 1, eq_ix2 j⟩
  show k0_pay1 (iblk0 V c 0 t) (iblk0 V c 1 t) (ix2 p q) = productFirst (V c main_arg0) (V c main_arg2) (((cfg0.win 2).blk t).view.emb (ix2 p q))
  refine point0 (V c main_arg0) (V c main_arg2) (iblk0 V c 0 t) (iblk0 V c 1 t) t.val ?_ ?_ p q _ ?_ ?_
  · intro p k i h0 h1
    show V c main_arg0 (((cfg0.win 0).blk t).view.emb (ix2 p k)) = V c main_arg0 i
    refine congrArg _ ?_
    funext a; apply Fin.ext
    match a with
    | ⟨0, _⟩ => show win0_0.index t (0 : Fin 2) * 5000 + 1 * p.val = (i 0).val; omega
    | ⟨1, _⟩ => show win0_0.index t (1 : Fin 2) * 128 + 1 * k.val = (i 1).val; omega
  · intro k q
    show V c main_arg2 (((cfg0.win 1).blk t).view.emb (ix2 k q)) = V c main_arg2 (ix2 k q)
    refine congrArg _ ?_
    funext a; apply Fin.ext
    match a with
    | ⟨0, _⟩ => show win0_1.index t (0 : Fin 2) * 128 + 1 * k.val = k.val; omega
    | ⟨1, _⟩ => show win0_1.index t (1 : Fin 2) * 16 + 1 * q.val = q.val; omega
  · show win0_2.index t (0 : Fin 2) * 5000 + 1 * p.val = t.val * 5000 + p.val; omega
  · show win0_2.index t (1 : Fin 2) * 16 + 1 * q.val = q.val; omega

/-- An index of the result array lies in point t's block iff each coordinate lies in the block's range on its axis. -/
theorem mem_block0 (t : Fin cfg0.N) (i : S100000x16.Idx) :
    i ∈ ((cfg0.win 2).blk t).view.set ↔ ∀ a : Fin 2, win0_2.index t a * S5000x16.size a ≤ (i a).val ∧ (i a).val < win0_2.index t a * S5000x16.size a + S5000x16.size a := by
  show i ∈ ((View.whole main_v33).slice (win0_2.rect t)).set ↔ _
  rw [View.set_slice_whole, Rect.mem_set_unit]
  exact Iff.rfl

/-- The twenty row blocks tile the array: row r lies in the block of point r / 5000. -/
theorem cover0 (i : S100000x16.Idx) : ∃ t : Fin cfg0.N, (cfg0.win 2).flush t = true ∧ i ∈ ((cfg0.win 2).blk t).view.set := by
  have hi0 : (i 0).val < 100000 := (i 0).isLt
  have hi1 : (i 1).val < 16 := (i 1).isLt
  have hN : cfg0.N = 20 := N_0
  have ht : (i 0).val / 5000 < cfg0.N := by rw [hN]; omega
  obtain ⟨e0, e1, e2, e3, e4, e5⟩ := index_maps0 ⟨(i 0).val / 5000, ht⟩
  refine ⟨⟨(i 0).val / 5000, ht⟩, flush0_2 _, ?_⟩
  rw [mem_block0]
  intro a
  match a with
  | ⟨0, _⟩ =>
    show win0_2.index ⟨(i 0).val / 5000, ht⟩ (0 : Fin 2) * 5000 ≤ (i 0).val ∧ (i 0).val < win0_2.index ⟨(i 0).val / 5000, ht⟩ (0 : Fin 2) * 5000 + 5000
    rw [e4]
    show (i 0).val / 5000 * 5000 ≤ (i 0).val ∧ (i 0).val < (i 0).val / 5000 * 5000 + 5000
    omega
  | ⟨1, _⟩ =>
    show win0_2.index ⟨(i 0).val / 5000, ht⟩ (1 : Fin 2) * 16 ≤ (i 1).val ∧ (i 1).val < win0_2.index ⟨(i 0).val / 5000, ht⟩ (1 : Fin 2) * 16 + 16
    omega

/-- THE ARRAY after the call: the whole-array function of the two arrays as the call finds them. -/
theorem final0 (c : Dev nD) : (dat0 V c).arrAt 2 cfg0.N = productFirst (V c main_arg0) (V c main_arg2) :=
  (dat0 V c).arrAt_eq_of_cover 2 _ (fun t _ => flushed0 V c t) (cover0)

end Cert.KernelIdeal.Blocks

end
-- ==== Proof.Region1.lean ====
/-
  The first bias-and-clamp call read as one array: twenty grid points, each writing back, for one 5000-row block of the
  aggregated messages, the block plus the bias row, clamped below at zero; the blocks tile the 100000 rows, so the array
  after the call is max(agg[n, q] + b1[q], 0) at every (n, q).
-/
import proofs.«157085_j30726196036175_1_alg».proof.Proof.Gen.KernelIdeal.Frame
import proofs.«157085_j30726196036175_1_alg».proof.Proof.Payloads
import proofs.«157085_j30726196036175_1_alg».proof.Proof.Region0
import Idealize.ShloMosaic.Lib.Pipeline.Value
import Idealize.ShloMosaic.Lib.ValueIdx

set_option maxRecDepth 16384

noncomputable section

namespace Cert.KernelIdeal.Blocks

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The first layer's bias and clamp as one array: entry (n, q) is max(a[n, q] + b[0, q], 0). -/
def biasReluFirst (a : Vec Ideal S100000x16 .f32) (b : Vec Ideal S1x16 .f32) : Vec Ideal S100000x16 .f32 :=
  fun i => max (a i + b (ix2 (0 : Fin 1) (⟨(i 1).val, (i 1).isLt⟩ : Fin 16))) (Ideal.ofBits .f32 0x00000000#32)

/-- The three index maps of this call over its twenty grid points: point t takes row block t of the aggregated array and of
    the result, and the whole one-row bias. -/
theorem index_maps1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- One point, over plain blocks: if `x0` is row block `r` of `A` and `x1` is the bias row `B`, the point's value at (p, q)
    is the whole-array value at (5000 r + p, q). -/
theorem point1 (A : Vec Ideal S100000x16 .f32) (B : Vec Ideal S1x16 .f32) (x0 : Vec Ideal S5000x16 .f32) (x1 : Vec Ideal S1x16 .f32)
    (r : Nat) (hx0 : ∀ (p : Fin 5000) (q : Fin 16) (i : S100000x16.Idx), (i 0).val = r * 5000 + p.val → (i 1).val = q.val → x0 (ix2 p q) = A i)
    (hx1 : ∀ (u : Fin 1) (q : Fin 16), x1 (ix2 u q) = B (ix2 u q))
    (p : Fin 5000) (q : Fin 16) (i : S100000x16.Idx) (hi0 : (i 0).val = r * 5000 + p.val) (hi1 : (i 1).val = q.val) :
    k1_pay1 (F := Ideal) x0 x1 (ix2 p q) = biasReluFirst A B i := by
  refine (Payload.bias_relu_first x0 x1 p q).trans ?_
  unfold biasReluFirst
  rw [hx0 p q i hi0 hi1, hx1 0 q]
  refine congrArg (fun z => max (A i + B z) _) ?_
  funext a; apply Fin.ext
  match a with
  | ⟨0, _⟩ => rfl
  | ⟨1, _⟩ => exact hi1.symm

/-- What point t writes back is block t of the whole-array function of the two arrays as the call finds them. -/
theorem flushed1 (c : Dev nD) (t : Fin cfg1.N) :
    (dat1 V c).flushed 2 t = ((cfg1.win 2).blk t).view.read (Elt Ideal) (biasReluFirst (V c main_v45) (V c main_v46)) := by
  show (cfg1.win 2).cut (grid1.coords t) ((dat1 V c).after 2 t) = _
  rw [after1_2]
  unfold out1_2
  rw [View.canon_unit_zero zero_offsets]
  simp only [View.ld_unit_zero (S := S5000x16) zero_offsets, View.ld_unit_zero (S := S1x16) zero_offsets]
  obtain ⟨e0, e1, e2, e3, e4, e5⟩ := index_maps1 t
  refine funext fun (j : S5000x16.Idx) => ?_
  obtain ⟨p, q, rfl⟩ : ∃ (p : Fin 5000) (q : Fin 16), j = ix2 p q := ⟨j 0, j 1, eq_ix2 j⟩
  show k1_pay1 (iblk1 V c 0 t) (iblk1 V c 1 t) (ix2 p q) = biasReluFirst (V c main_v45) (V c main_v46) (((cfg1.win 2).blk t).view.emb (ix2 p q))
  refine point1 (V c main_v45) (V c main_v46) (iblk1 V c 0 t) (iblk1 V c 1 t) t.val ?_ ?_ p q _ ?_ ?_
  · intro p q i h0 h1
    show V c main_v45 (((cfg1.win 0).blk t).view.emb (ix2 p q)) = V c main_v45 i
    refine congrArg _ ?_
    funext a; apply Fin.ext
    match a with
    | ⟨0, _⟩ => show win1_0.index t (0 : Fin 2) * 5000 + 1 * p.val = (i 0).val; omega
    | ⟨1, _⟩ => show win1_0.index t (1 : Fin 2) * 16 + 1 * q.val = (i 1).val; omega
  · intro u q
    show V c main_v46 (((cfg1.win 1).blk t).view.emb (ix2 u q)) = V c main_v46 (ix2 u q)
    refine congrArg _ ?_
    funext a; apply Fin.ext
    match a with
    | ⟨0, _⟩ => show win1_1.index t (0 : Fin 2) * 1 + 1 * u.val = u.val; omega
    | ⟨1, _⟩ => show win1_1.index t (1 : Fin 2) * 16 + 1 * q.val = q.val; omega
  · show win1_2.index t (0 : Fin 2) * 5000 + 1 * p.val = t.val * 5000 + p.val; omega
  · show win1_2.index t (1 : Fin 2) * 16 + 1 * q.val = q.val; omega

/-- An index of the result array lies in point t's block iff each coordinate lies in the block's range on its axis. -/
theorem mem_block1 (t : Fin cfg1.N) (i : S100000x16.Idx) :
    i ∈ ((cfg1.win 2).blk t).view.set ↔ ∀ a : Fin 2, win1_2.index t a * S5000x16.size a ≤ (i a).val ∧ (i a).val < win1_2.index t a * S5000x16.size a + S5000x16.size a := by
  show i ∈ ((View.whole main_v47).slice (win1_2.rect t)).set ↔ _
  rw [View.set_slice_whole, Rect.mem_set_unit]
  exact Iff.rfl

/-- The twenty row blocks tile the array: row r lies in the block of point r / 5000. -/
theorem cover1 (i : S100000x16.Idx) : ∃ t : Fin cfg1.N, (cfg1.win 2).flush t = true ∧ i ∈ ((cfg1.win 2).blk t).view.set := by
  have hi0 : (i 0).val < 100000 := (i 0).isLt
  have hi1 : (i 1).val < 16 := (i 1).isLt
  have hN : cfg1.N = 20 := N_1
  have ht : (i 0).val / 5000 < cfg1.N := by rw [hN]; omega
  obtain ⟨e0, e1, e2, e3, e4, e5⟩ := index_maps1 ⟨(i 0).val / 5000, ht⟩
  refine ⟨⟨(i 0).val / 5000, ht⟩, flush1_2 _, ?_⟩
  rw [mem_block1]
  intro a
  match a with
  | ⟨0, _⟩ =>
    show win1_2.index ⟨(i 0).val / 5000, ht⟩ (0 : Fin 2) * 5000 ≤ (i 0).val ∧ (i 0).val < win1_2.index ⟨(i 0).val / 5000, ht⟩ (0 : Fin 2) * 5000 + 5000
    rw [e4]
    show (i 0).val / 5000 * 5000 ≤ (i 0).val ∧ (i 0).val < (i 0).val / 5000 * 5000 + 5000
    omega
  | ⟨1, _⟩ =>
    show win1_2.index ⟨(i 0).val / 5000, ht⟩ (1 : Fin 2) * 16 ≤ (i 1).val ∧ (i 1).val < win1_2.index ⟨(i 0).val / 5000, ht⟩ (1 : Fin 2) * 16 + 16
    omega

/-- THE ARRAY after the call: the whole-array function of the two arrays as the call finds them. -/
theorem final1 (c : Dev nD) : (dat1 V c).arrAt 2 cfg1.N = biasReluFirst (V c main_v45) (V c main_v46) :=
  (dat1 V c).arrAt_eq_of_cover 2 _ (fun t _ => flushed1 V c t) (cover1)

end Cert.KernelIdeal.Blocks

end
-- ==== Proof.Region2.lean ====
/-
  The second product call read as one array: twenty grid points, each writing back the product of one 5000-row block of
  the hidden features with the whole second-layer weights; the blocks tile the 100000 rows, so the array after the call
  is the whole product, entry (n, q) the sum over the 16 hidden features of h[n, k] · W2[k, q].
-/
import proofs.«157085_j30726196036175_1_alg».proof.Proof.Gen.KernelIdeal.Frame
import proofs.«157085_j30726196036175_1_alg».proof.Proof.Payloads
import proofs.«157085_j30726196036175_1_alg».proof.Proof.Region0
import Idealize.ShloMosaic.Lib.Pipeline.Value
import Idealize.ShloMosaic.Lib.ValueIdx

set_option maxRecDepth 16384

noncomputable section

namespace Cert.KernelIdeal.Blocks

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The second layer's linear map as one array: entry (n, q) is the sum over the 16 hidden features of h[n, k] · W[k, q]. -/
def productSecond (x : Vec Ideal S100000x16 .f32) (w : Vec Ideal S16x128 .f32) : Vec Ideal S100000x128 .f32 :=
  fun i => ∑ k : Fin 16, x (ix2 (⟨(i 0).val, (i 0).isLt⟩ : Fin 100000) k) * w (ix2 k (⟨(i 1).val, (i 1).isLt⟩ : Fin 128))

/-- The three index maps of this call over its twenty grid points: point t takes row block t of the left operand and of the
    result, and the whole weights. -/
theorem index_maps2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- One point, over plain blocks: if `x0` is row block `r` of `X` and `x1` is all of `W`, the point's product at (p, q)
    is the whole product at (5000 r + p, q). -/
theorem point2 (X : Vec Ideal S100000x16 .f32) (W : Vec Ideal S16x128 .f32) (x0 : Vec Ideal S5000x16 .f32) (x1 : Vec Ideal S16x128 .f32)
    (r : Nat) (hx0 : ∀ (p : Fin 5000) (k : Fin 16) (i : S100000x16.Idx), (i 0).val = r * 5000 + p.val → (i 1).val = k.val → x0 (ix2 p k) = X i)
    (hx1 : ∀ (k : Fin 16) (q : Fin 128), x1 (ix2 k q) = W (ix2 k q))
    (p : Fin 5000) (q : Fin 128) (i : S100000x128.Idx) (hi0 : (i 0).val = r * 5000 + p.val) (hi1 : (i 1).val = q.val) :
    k2_pay1 (F := Ideal) x0 x1 (ix2 p q) = productSecond X W i := by
  refine (Payload.product_second x0 x1 p q).trans ?_
  unfold productSecond
  refine Finset.sum_congr rfl fun k _ => ?_
  rw [hx0 p k (ix2 (⟨(i 0).val, (i 0).isLt⟩ : Fin 100000) k) hi0 rfl, hx1 k q]
  refine congrArg (fun z => X _ * W z) ?_
  funext a; apply Fin.ext
  match a with
  | ⟨0, _⟩ => rfl
  | ⟨1, _⟩ => exact hi1.symm

/-- What point t writes back is block t of the whole product of the two arrays as the call finds them. -/
theorem flushed2 (c : Dev nD) (t : Fin cfg2.N) :
    (dat2 V c).flushed 2 t = ((cfg2.win 2).blk t).view.read (Elt Ideal) (productSecond (V c main_v47) (V c main_arg4)) := by
  show (cfg2.win 2).cut (grid2.coords t) ((dat2 V c).after 2 t) = _
  rw [after2_2]
  unfold out2_2
  rw [View.canon_unit_zero zero_offsets]
  simp only [View.ld_unit_zero (S := S5000x16) zero_offsets, View.ld_unit_zero (S := S16x128) zero_offsets]
  obtain ⟨e0, e1, e2, e3, e4, e5⟩ := index_maps2 t
  refine funext fun (j : S5000x128.Idx) => ?_
  obtain ⟨p, q, rfl⟩ : ∃ (p : Fin 5000) (q : Fin 128), j = ix2 p q := ⟨j 0, j 1, eq_ix2 j⟩
  show k2_pay1 (iblk2 V c 0 t) (iblk2 V c 1 t) (ix2 p q) = productSecond (V c main_v47) (V c main_arg4) (((cfg2.win 2).blk t).view.emb (ix2 p q))
  refine point2 (V c main_v47) (V c main_arg4) (iblk2 V c 0 t) (iblk2 V c 1 t) t.val ?_ ?_ p q _ ?_ ?_
  · intro p k i h0 h1
    show V c main_v47 (((cfg2.win 0).blk t).view.emb (ix2 p k)) = V c main_v47 i
    refine congrArg _ ?_
    funext a; apply Fin.ext
    match a with
    | ⟨0, _⟩ => show win2_0.index t (0 : Fin 2) * 5000 + 1 * p.val = (i 0).val; omega
    | ⟨1, _⟩ => show win2_0.index t (1 : Fin 2) * 16 + 1 * k.val = (i 1).val; omega
  · intro k q
    show V c main_arg4 (((cfg2.win 1).blk t).view.emb (ix2 k q)) = V c main_arg4 (ix2 k q)
    refine congrArg _ ?_
    funext a; apply Fin.ext
    match a with
    | ⟨0, _⟩ => show win2_1.index t (0 : Fin 2) * 16 + 1 * k.val = k.val; omega
    | ⟨1, _⟩ => show win2_1.index t (1 : Fin 2) * 128 + 1 * q.val = q.val; omega
  · show win2_2.index t (0 : Fin 2) * 5000 + 1 * p.val = t.val * 5000 + p.val; omega
  · show win2_2.index t (1 : Fin 2) * 128 + 1 * q.val = q.val; omega

/-- An index of the result array lies in point t's block iff each coordinate lies in the block's range on its axis. -/
theorem mem_block2 (t : Fin cfg2.N) (i : S100000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v48).slice (win2_2.rect t)).set ↔ _
  rw [View.set_slice_whole, Rect.mem_set_unit]
  exact Iff.rfl

/-- The twenty row blocks tile the array: row r lies in the block of point r / 5000. -/
theorem cover2 (i : S100000x128.Idx) : ∃ t : Fin cfg2.N, (cfg2.win 2).flush t = true ∧ i ∈ ((cfg2.win 2).blk t).view.set := by
  have hi0 : (i 0).val < 100000 := (i 0).isLt
  have hi1 : (i 1).val < 128 := (i 1).isLt
  have hN : cfg2.N = 20 := N_2
  have ht : (i 0).val / 5000 < cfg2.N := by rw [hN]; omega
  obtain ⟨e0, e1, e2, e3, e4, e5⟩ := index_maps2 ⟨(i 0).val / 5000, ht⟩
  refine ⟨⟨(i 0).val / 5000, ht⟩, flush2_2 _, ?_⟩
  rw [mem_block2]
  intro a
  match a with
  | ⟨0, _⟩ =>
    show win2_2.index ⟨(i 0).val / 5000, ht⟩ (0 : Fin 2) * 5000 ≤ (i 0).val ∧ (i 0).val < win2_2.index ⟨(i 0).val / 5000, ht⟩ (0 : Fin 2) * 5000 + 5000
    rw [e4]
    show (i 0).val / 5000 * 5000 ≤ (i 0).val ∧ (i 0).val < (i 0).val / 5000 * 5000 + 5000
    omega
  | ⟨1, _⟩ =>
    show win2_2.index ⟨(i 0).val / 5000, ht⟩ (1 : Fin 2) * 128 ≤ (i 1).val ∧ (i 1).val < win2_2.index ⟨(i 0).val / 5000, ht⟩ (1 : Fin 2) * 128 + 128
    omega

/-- THE ARRAY after the call: the whole-array function of the two arrays as the call finds them. -/
theorem final2 (c : Dev nD) : (dat2 V c).arrAt 2 cfg2.N = productSecond (V c main_v47) (V c main_arg4) :=
  (dat2 V c).arrAt_eq_of_cover 2 _ (fun t _ => flushed2 V c t) (cover2)

end Cert.KernelIdeal.Blocks

end
-- ==== Proof.Region3.lean ====
/-
  The second bias-and-clamp call read as one array: twenty grid points, each writing back, for one 5000-row block of the
  aggregated messages, the block plus the bias row, clamped below at zero; the blocks tile the 100000 rows, so the array
  after the call is max(agg[n, q] + b2[q], 0) at every (n, q).
-/
import proofs.«157085_j30726196036175_1_alg».proof.Proof.Gen.KernelIdeal.Frame
import proofs.«157085_j30726196036175_1_alg».proof.Proof.Payloads
import proofs.«157085_j30726196036175_1_alg».proof.Proof.Region0
import Idealize.ShloMosaic.Lib.Pipeline.Value
import Idealize.ShloMosaic.Lib.ValueIdx

set_option maxRecDepth 16384

noncomputable section

namespace Cert.KernelIdeal.Blocks

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The second layer's bias and clamp as one array: entry (n, q) is max(a[n, q] + b[0, q], 0). -/
def biasReluSecond (a : Vec Ideal S100000x128 .f32) (b : Vec Ideal S1x128 .f32) : Vec Ideal S100000x128 .f32 :=
  fun i => max (a i + b (ix2 (0 : Fin 1) (⟨(i 1).val, (i 1).isLt⟩ : Fin 128))) (Ideal.ofBits .f32 0x00000000#32)

/-- The three index maps of this call over its twenty grid points: point t takes row block t of the aggregated array and of
    the result, and the whole one-row bias. -/
theorem index_maps3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- One point, over plain blocks: if `x0` is row block `r` of `A` and `x1` is the bias row `B`, the point's value at (p, q)
    is the whole-array value at (5000 r + p, q). -/
theorem point3 (A : Vec Ideal S100000x128 .f32) (B : Vec Ideal S1x128 .f32) (x0 : Vec Ideal S5000x128 .f32) (x1 : Vec Ideal S1x128 .f32)
    (r : Nat) (hx0 : ∀ (p : Fin 5000) (q : Fin 128) (i : S100000x128.Idx), (i 0).val = r * 5000 + p.val → (i 1).val = q.val → x0 (ix2 p q) = A i)
    (hx1 : ∀ (u : Fin 1) (q : Fin 128), x1 (ix2 u q) = B (ix2 u q))
    (p : Fin 5000) (q : Fin 128) (i : S100000x128.Idx) (hi0 : (i 0).val = r * 5000 + p.val) (hi1 : (i 1).val = q.val) :
    k3_pay1 (F := Ideal) x0 x1 (ix2 p q) = biasReluSecond A B i := by
  refine (Payload.bias_relu_second x0 x1 p q).trans ?_
  unfold biasReluSecond
  rw [hx0 p q i hi0 hi1, hx1 0 q]
  refine congrArg (fun z => max (A i + B z) _) ?_
  funext a; apply Fin.ext
  match a with
  | ⟨0, _⟩ => rfl
  | ⟨1, _⟩ => exact hi1.symm

/-- What point t writes back is block t of the whole-array function of the two arrays as the call finds them. -/
theorem flushed3 (c : Dev nD) (t : Fin cfg3.N) :
    (dat3 V c).flushed 2 t = ((cfg3.win 2).blk t).view.read (Elt Ideal) (biasReluSecond (V c main_v60) (V c main_v61)) := by
  show (cfg3.win 2).cut (grid3.coords t) ((dat3 V c).after 2 t) = _
  rw [after3_2]
  unfold out3_2
  rw [View.canon_unit_zero zero_offsets]
  simp only [View.ld_unit_zero (S := S5000x128) zero_offsets, View.ld_unit_zero (S := S1x128) zero_offsets]
  obtain ⟨e0, e1, e2, e3, e4, e5⟩ := index_maps3 t
  refine funext fun (j : S5000x128.Idx) => ?_
  obtain ⟨p, q, rfl⟩ : ∃ (p : Fin 5000) (q : Fin 128), j = ix2 p q := ⟨j 0, j 1, eq_ix2 j⟩
  show k3_pay1 (iblk3 V c 0 t) (iblk3 V c 1 t) (ix2 p q) = biasReluSecond (V c main_v60) (V c main_v61) (((cfg3.win 2).blk t).view.emb (ix2 p q))
  refine point3 (V c main_v60) (V c main_v61) (iblk3 V c 0 t) (iblk3 V c 1 t) t.val ?_ ?_ p q _ ?_ ?_
  · intro p q i h0 h1
    show V c main_v60 (((cfg3.win 0).blk t).view.emb (ix2 p q)) = V c main_v60 i
    refine congrArg _ ?_
    funext a; apply Fin.ext
    match a with
    | ⟨0, _⟩ => show win3_0.index t (0 : Fin 2) * 5000 + 1 * p.val = (i 0).val; omega
    | ⟨1, _⟩ => show win3_0.index t (1 : Fin 2) * 128 + 1 * q.val = (i 1).val; omega
  · intro u q
    show V c main_v61 (((cfg3.win 1).blk t).view.emb (ix2 u q)) = V c main_v61 (ix2 u q)
    refine congrArg _ ?_
    funext a; apply Fin.ext
    match a with
    | ⟨0, _⟩ => show win3_1.index t (0 : Fin 2) * 1 + 1 * u.val = u.val; omega
    | ⟨1, _⟩ => show win3_1.index t (1 : Fin 2) * 128 + 1 * q.val = q.val; omega
  · show win3_2.index t (0 : Fin 2) * 5000 + 1 * p.val = t.val * 5000 + p.val; omega
  · show win3_2.index t (1 : Fin 2) * 128 + 1 * q.val = q.val; omega

/-- An index of the result array lies in point t's block iff each coordinate lies in the block's range on its axis. -/
theorem mem_block3 (t : Fin cfg3.N) (i : S100000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v62).slice (win3_2.rect t)).set ↔ _
  rw [View.set_slice_whole, Rect.mem_set_unit]
  exact Iff.rfl

/-- The twenty row blocks tile the array: row r lies in the block of point r / 5000. -/
theorem cover3 (i : S100000x128.Idx) : ∃ t : Fin cfg3.N, (cfg3.win 2).flush t = true ∧ i ∈ ((cfg3.win 2).blk t).view.set := by
  have hi0 : (i 0).val < 100000 := (i 0).isLt
  have hi1 : (i 1).val < 128 := (i 1).isLt
  have hN : cfg3.N = 20 := N_3
  have ht : (i 0).val / 5000 < cfg3.N := by rw [hN]; omega
  obtain ⟨e0, e1, e2, e3, e4, e5⟩ := index_maps3 ⟨(i 0).val / 5000, ht⟩
  refine ⟨⟨(i 0).val / 5000, ht⟩, flush3_2 _, ?_⟩
  rw [mem_block3]
  intro a
  match a with
  | ⟨0, _⟩ =>
    show win3_2.index ⟨(i 0).val / 5000, ht⟩ (0 : Fin 2) * 5000 ≤ (i 0).val ∧ (i 0).val < win3_2.index ⟨(i 0).val / 5000, ht⟩ (0 : Fin 2) * 5000 + 5000
    rw [e4]
    show (i 0).val / 5000 * 5000 ≤ (i 0).val ∧ (i 0).val < (i 0).val / 5000 * 5000 + 5000
    omega
  | ⟨1, _⟩ =>
    show win3_2.index ⟨(i 0).val / 5000, ht⟩ (1 : Fin 2) * 128 ≤ (i 1).val ∧ (i 1).val < win3_2.index ⟨(i 0).val / 5000, ht⟩ (1 : Fin 2) * 128 + 128
    omega

/-- THE ARRAY after the call: the whole-array function of the two arrays as the call finds them. -/
theorem final3 (c : Dev nD) : (dat3 V c).arrAt 2 cfg3.N = biasReluSecond (V c main_v60) (V c main_v61) :=
  (dat3 V c).arrAt_eq_of_cover 2 _ (fun t _ => flushed3 V c t) (cover3)

end Cert.KernelIdeal.Blocks

end
-- ==== Proof.Bridge.lean ====
/-
  The reference's four dense stages are the four whole-array functions the kernel's calls leave.
  The reference computes each linear map as one host matrix product, which over the extended reals is the plain sum over
  the shared axis — the same sum the row-blocked kernel product assembles —, and adds each bias by broadcasting the
  length-p vector first to one row and then to all 100000 rows before the clamp at zero, where the kernel reshapes it to
  one row and broadcasts inside each block: both read the bias at the entry's column.
-/
import proofs.«157085_j30726196036175_1_alg».proof.Proof.RefReadP
import proofs.«157085_j30726196036175_1_alg».proof.Proof.Region0
import proofs.«157085_j30726196036175_1_alg».proof.Proof.Region1
import proofs.«157085_j30726196036175_1_alg».proof.Proof.Region2
import proofs.«157085_j30726196036175_1_alg».proof.Proof.Region3
import Idealize.ShloMosaic.Lib.ValueLayout

noncomputable section

namespace Cert.Bridge

open Cert.ReferenceIdeal Cert.ReferenceIdeal.ReadP Idealize.ShloMosaic Idealize.ShloMosaic.ValueIdx
open Cert.KernelIdeal.Blocks (productFirst productSecond biasReluFirst biasReluSecond)

/-- The reference's first matrix product is the row-by-column sum over the 128 input features. -/
theorem product_first_eq (x0 : (⟨S100000x128, .f32⟩ : BufTy).Contents (Elt Ideal)) (x2 : (⟨S128x16, .f32⟩ : BufTy).Contents (Elt Ideal)) :
    val_main_v32 (F := Ideal) x0 x2 = productFirst x0 x2 := by
  funext i
  rw [val_main_v32_apply]
  unfold productFirst
  refine Finset.sum_congr rfl fun k _ => ?_
  refine congrArg₂ (fun a b => x0 a * x2 b) ?_ ?_
  · funext a; match a with
    | ⟨0, _⟩ => rfl
    | ⟨1, _⟩ => rfl
  · funext a; match a with
    | ⟨0, _⟩ => rfl
    | ⟨1, _⟩ => rfl

/-- Adding the bias, broadcast first to one row and then to every row, and clamping at zero is max(a[n, q] + b[q], 0),
    whatever array `a` is: the bias read through its one-row reshape. -/
theorem bias_relu_first_of (a : FVec Ideal S100000x16 .f32) (x3 : (⟨S16, .f32⟩ : BufTy).Contents (Elt Ideal)) :
    (maximumf (addf a (val_main_v47 (F := Ideal) x3)) (val_main_call1_v0 (F := Ideal)) : FVec Ideal S100000x16 .f32)
      = biasReluFirst a (shapeCast S1x16 x3 Cert.KernelIdeal.Gen.shapeCasts_S16_S1x16) := by
  funext i
  refine (maximumf_apply _ _ i).trans ?_
  unfold biasReluFirst
  rw [addf_apply, val_main_v47_apply, val_main_v46_apply, val_main_call1_v0_apply, shapeCast_a_1a_apply]
  refine congrArg₂ max (congrArg (a i + ·) (congrArg x3 ?_)) rfl
  funext d; match d with
    | ⟨0, _⟩ => rfl

/-- The reference's first bias-and-clamp stage is that function of its first aggregation. -/
theorem bias_relu_first_eq (x0 : (⟨S100000x128, .f32⟩ : BufTy).Contents (Elt Ideal)) (x1 : (⟨S2x1600000, .i32⟩ : BufTy).Contents (Elt Ideal))
    (x2 : (⟨S128x16, .f32⟩ : BufTy).Contents (Elt Ideal)) (x3 : (⟨S16, .f32⟩ : BufTy).Contents (Elt Ideal)) :
    val_main_v49 (F := Ideal) x0 x1 x2 x3
      = biasReluFirst (val_main_v45 (F := Ideal) x0 x1 x2) (shapeCast S1x16 x3 Cert.KernelIdeal.Gen.shapeCasts_S16_S1x16) := by
  unfold val_main_v49 val_main_v48
  exact bias_relu_first_of _ x3

/-- The reference's second matrix product is the row-by-column sum over the 16 hidden features. -/
theorem product_second_eq (x0 : (⟨S100000x128, .f32⟩ : BufTy).Contents (Elt Ideal)) (x1 : (⟨S2x1600000, .i32⟩ : BufTy).Contents (Elt Ideal))
    (x2 : (⟨S128x16, .f32⟩ : BufTy).Contents (Elt Ideal)) (x3 : (⟨S16, .f32⟩ : BufTy).Contents (Elt Ideal)) (x4 : (⟨S16x128, .f32⟩ : BufTy).Contents (Elt Ideal)) :
    val_main_v78 (F := Ideal) x0 x1 x2 x3 x4 = productSecond (val_main_v49 (F := Ideal) x0 x1 x2 x3) x4 := by
  funext i
  rw [val_main_v78_apply]
  unfold productSecond
  refine Finset.sum_congr rfl fun k _ => ?_
  refine congrArg₂ (fun a b => val_main_v49 (F := Ideal) x0 x1 x2 x3 a * x4 b) ?_ ?_
  · funext a; match a with
    | ⟨0, _⟩ => rfl
    | ⟨1, _⟩ => rfl
  · funext a; match a with
    | ⟨0, _⟩ => rfl
    | ⟨1, _⟩ => rfl

/-- Adding the bias, broadcast first to one row and then to every row, and clamping at zero is max(a[n, q] + b[q], 0),
    whatever array `a` is: the bias read through its one-row reshape. -/
theorem bias_relu_second_of (a : FVec Ideal S100000x128 .f32) (x5 : (⟨S128, .f32⟩ : BufTy).Contents (Elt Ideal)) :
    (maximumf (addf a (val_main_v93 (F := Ideal) x5)) (val_main_call3_v0 (F := Ideal)) : FVec Ideal S100000x128 .f32)
      = biasReluSecond a (shapeCast S1x128 x5 Cert.KernelIdeal.Gen.shapeCasts_S128_S1x128) := by
  funext i
  refine (maximumf_apply _ _ i).trans ?_
  unfold biasReluSecond
  rw [addf_apply, val_main_v93_apply, val_main_v92_apply, val_main_call3_v0_apply, shapeCast_a_1a_apply]
  refine congrArg₂ max (congrArg (a i + ·) (congrArg x5 ?_)) rfl
  funext d; match d with
    | ⟨0, _⟩ => rfl

/-- The reference's result, its second bias-and-clamp stage, is that function of its second aggregation. -/
theorem bias_relu_second_eq (x0 : (⟨S100000x128, .f32⟩ : BufTy).Contents (Elt Ideal)) (x1 : (⟨S2x1600000, .i32⟩ : BufTy).Contents (Elt Ideal))
    (x2 : (⟨S128x16, .f32⟩ : BufTy).Contents (Elt Ideal)) (x3 : (⟨S16, .f32⟩ : BufTy).Contents (Elt Ideal)) (x4 : (⟨S16x128, .f32⟩ : BufTy).Contents (Elt Ideal))
    (x5 : (⟨S128, .f32⟩ : BufTy).Contents (Elt Ideal)) :
    val_main_v95 (F := Ideal) x0 x1 x2 x3 x4 x5
      = biasReluSecond (val_main_v91 (F := Ideal) x0 x1 x2 x3 x4) (shapeCast S1x128 x5 Cert.KernelIdeal.Gen.shapeCasts_S128_S1x128) := by
  unfold val_main_v95 val_main_v94
  exact bias_relu_second_of _ x5

end Cert.Bridge

end
-- ==== Proof.Chain.lean ====
/-
  The kernel program's buffers, boundary by boundary, as functions of the six argument arrays.
  The program is nine stretches: host operations (the edge lists with self loops, the degrees by a scatter-add of ones,
  their inverse square roots where positive, the per-edge weight column), the first product call, host operations (gather
  the source rows, scale by the weight column, scatter-add into the destination rows), the first bias-and-clamp call, the
  second product call, the same gather / scale / scatter-add on 128 columns, the second bias-and-clamp call. Each call
  leaves its output array at the whole-array function of its two input arrays; each host stretch leaves its results at
  its operations applied to what it found; a buffer that a stretch does not write keeps its contents. Read in order this
  gives every buffer the value the reference's stage of the same meaning has, the reference computing the edge lists and
  the weights afresh for its second layer by the same operations on the same edge array.
-/
import proofs.«157085_j30726196036175_1_alg».proof.Proof.Gen.KernelIdeal.Frame
import proofs.«157085_j30726196036175_1_alg».proof.Proof.Bridge

set_option maxRecDepth 16384

noncomputable section

namespace Cert.KernelIdeal.Chain

open Cert.KernelIdeal Cert.KernelIdeal.Gen Idealize.ShloMosaic Idealize.ShloMosaic.TcCoe Idealize.SL.Sem
open Cert.ReferenceIdeal.ReadP

variable (m : (ℓ : Loc nD τ sig) → Buf (Elt Ideal) ℓ) (ρ : Dev nD → PrngReg)

/-! ## The edge lists and the degrees' inverse square roots -/

/-- After the first stretch, the source list (edge sources, then every node once). -/
theorem v5_at1 (c : Dev nD) : W1 m ρ c (Proc.devRef .tc main_v5) = val_main_v5 (F := Ideal) (m ((c : Thread nD τ).loc main_arg1)) := by
  dsimp only [W1, W0, hostOps0]
  after_results_simp <;> rfl

/-- After the first stretch, the destination list (edge destinations, then every node once). -/
theorem v6_at1 (c : Dev nD) : W1 m ρ c (Proc.devRef .tc main_v6) = val_main_v6 (F := Ideal) (m ((c : Thread nD τ).loc main_arg1)) := by
  dsimp only [W1, W0, hostOps0]
  after_results_simp <;> rfl

/-- After the first stretch, where a node's degree (the number of list entries pointing at it) is positive. -/
theorem v12_at1 (c : Dev nD) : W1 m ρ c (Proc.devRef .tc main_v12) = val_main_v12 (F := Ideal) (m ((c : Thread nD τ).loc main_arg1)) := by
  dsimp only [W1, W0, hostOps0]
  after_results_simp <;> rfl

/-- After the first stretch, one over the square root of every node's degree. -/
theorem v15_at1 (c : Dev nD) : W1 m ρ c (Proc.devRef .tc main_v15) = val_main_v15 (F := Ideal) (m ((c : Thread nD τ).loc main_arg1)) := by
  dsimp only [W1, W0, hostOps0]
  after_results_simp <;> rfl

/-- After the first stretch, the zero that stands for a node of degree zero. -/
theorem cst3_at1 (c : Dev nD) : W1 m ρ c (Proc.devRef .tc main_cst_3) = val_main_cst_3 (F := Ideal) := by
  dsimp only [W1, W0, hostOps0]
  after_results_simp <;> rfl

/-- The selection stretch over any contents: where the flag is set take the inverse square root, elsewhere the zero. -/
theorem select_stage (V : Valuation τ sig (Elt Ideal)) (p : IVec S100000 1) (r : FVec Ideal S100000 .f32) (z : FVec Ideal S_ .f32)
    (hp : V (Proc.devRef .tc main_v12) = p) (hr : V (Proc.devRef .tc main_v15) = r) (hz : V (Proc.devRef .tc main_cst_3) = z) :
    StableHlo.after hostOps0_1 V (Proc.devRef .tc main_v16) = select p r (broadcastInDim S100000 ![] Gen.bcast_S_S100000 (id z)) := by
  dsimp only [hostOps0_1]
  after_results_simp
  rw [hp, hr, hz]
  rfl

/-- The inverse square roots of the degrees, zero where the degree is not positive. -/
theorem v16_at2 (c : Dev nD) : W2 m ρ c (Proc.devRef .tc main_v16) = val_main_v16 (F := Ideal) (m ((c : Thread nD τ).loc main_arg1)) :=
  (select_stage (W1 m ρ c) _ _ _ (v12_at1 m ρ c) (v15_at1 m ρ c) (cst3_at1 m ρ c)).trans rfl

/-- The selection leaves the source list as it was. -/
theorem v5_at2 (c : Dev nD) : W2 m ρ c (Proc.devRef .tc main_v5) = val_main_v5 (F := Ideal) (m ((c : Thread nD τ).loc main_arg1)) := by
  dsimp only [W2, hostOps0_1]
  after_results_simp
  exact v5_at1 m ρ c

/-- The selection leaves the destination list as it was. -/
theorem v6_at2 (c : Dev nD) : W2 m ρ c (Proc.devRef .tc main_v6) = val_main_v6 (F := Ideal) (m ((c : Thread nD τ).loc main_arg1)) := by
  dsimp only [W2, hostOps0_1]
  after_results_simp
  exact v6_at1 m ρ c

/-! ## Entering the first product call -/

/-- A node index read as a row number: a negative index counts from the end. -/
def wrapIndex (x : IVec S1700000 32) : IVec S1700000 32 :=
  select (cmpi .slt x (broadcastInDim S1700000 ![] Gen.bcast_S_S1700000 (constantI S_ 32 0#32)))
    (addi x (broadcastInDim S1700000 ![] Gen.bcast_S_S1700000 (constantI S_ 32 100000#32))) x

/-- The weight stretch over any contents: per list entry, the inverse square root at its source times the one at its
    destination, as a column. -/
theorem weight_stage (V : Valuation τ sig (Elt Ideal)) (g : FVec Ideal S100000 .f32) (s d : IVec S1700000 32)
    (hg : V (Proc.devRef .tc main_v16) = g) (hs : V (Proc.devRef .tc main_v5) = s) (hd : V (Proc.devRef .tc main_v6) = d) :
    StableHlo.after hostOps0_2 V (Proc.devRef .tc main_v32)
      = broadcastInDim S1700000x1 ![0] Gen.bcast_S1700000_S1700000x1_0
          (mulf (Host.gather gather_S100000_S1700000x1_S1700000_n_0_n_n_0_1_1 g (broadcastInDim S1700000x1 ![0] Gen.bcast_S1700000_S1700000x1_0 (wrapIndex s)))
                (Host.gather gather_S100000_S1700000x1_S1700000_n_0_n_n_0_1_1 g (broadcastInDim S1700000x1 ![0] Gen.bcast_S1700000_S1700000x1_0 (wrapIndex d)))) := by
  dsimp only [hostOps0_2]
  after_results_simp
  rw [hg, hs, hd]
  rfl

/-- Entering the first product call, the column of edge weights deg^(-1/2)[source] · deg^(-1/2)[destination]: both factors gathered from the inverse square roots, at the source and at the
    destination of each list entry. -/
theorem v32_at3 (c : Dev nD) : W3 m ρ c (Proc.devRef .tc main_v32) = val_main_v40 (F := Ideal) (m ((c : Thread nD τ).loc main_arg1)) :=
  (weight_stage (W2 m ρ c) _ _ _ (v16_at2 m ρ c) (v5_at2 m ρ c) (v6_at2 m ρ c)).trans rfl

/-- Entering the first product call, the source list (edge sources, then every node once). -/
theorem v5_at3 (c : Dev nD) : W3 m ρ c (Proc.devRef .tc main_v5) = val_main_v5 (F := Ideal) (m ((c : Thread nD τ).loc main_arg1)) := by
  dsimp only [W3, hostOps0_2]
  after_results_simp
  exact v5_at2 m ρ c

/-- Entering the first product call, the destination list (edge destinations, then every node once). -/
theorem v6_at3 (c : Dev nD) : W3 m ρ c (Proc.devRef .tc main_v6) = val_main_v6 (F := Ideal) (m ((c : Thread nD τ).loc main_arg1)) := by
  dsimp only [W3, hostOps0_2]
  after_results_simp
  exact v6_at2 m ρ c

/-- Entering the first product call, the node features. -/
theorem arg0_at3 (c : Dev nD) : W3 m ρ c (Proc.devRef .tc main_arg0) = (m ((c : Thread nD τ).loc main_arg0)) := by
  dsimp only [W3, W2, W1, W0, hostOps0_2, hostOps0_1, hostOps0]
  after_results_simp <;> rfl

/-- Entering the first product call, the first weights. -/
theorem arg2_at3 (c : Dev nD) : W3 m ρ c (Proc.devRef .tc main_arg2) = (m ((c : Thread nD τ).loc main_arg2)) := by
  dsimp only [W3, W2, W1, W0, hostOps0_2, hostOps0_1, hostOps0]
  after_results_simp <;> rfl

/-- Entering the first product call, the first bias. -/
theorem arg3_at3 (c : Dev nD) : W3 m ρ c (Proc.devRef .tc main_arg3) = (m ((c : Thread nD τ).loc main_arg3)) := by
  dsimp only [W3, W2, W1, W0, hostOps0_2, hostOps0_1, hostOps0]
  after_results_simp <;> rfl

/-- Entering the first product call, the second weights. -/
theorem arg4_at3 (c : Dev nD) : W3 m ρ c (Proc.devRef .tc main_arg4) = (m ((c : Thread nD τ).loc main_arg4)) := by
  dsimp only [W3, W2, W1, W0, hostOps0_2, hostOps0_1, hostOps0]
  after_results_simp <;> rfl

/-- Entering the first product call, the second bias. -/
theorem arg5_at3 (c : Dev nD) : W3 m ρ c (Proc.devRef .tc main_arg5) = (m ((c : Thread nD τ).loc main_arg5)) := by
  dsimp only [W3, W2, W1, W0, hostOps0_2, hostOps0_1, hostOps0]
  after_results_simp <;> rfl

/-! ## Leaving the first product call -/

/-- The first call leaves the first layer's linear map of the node features. -/
theorem lin1_at4 (c : Dev nD) : W4 m ρ c (Proc.devRef .tc main_v33) = val_main_v32 (F := Ideal) (m ((c : Thread nD τ).loc main_arg0)) (m ((c : Thread nD τ).loc main_arg2)) := by
  refine (W4_arr m ρ c 2).trans ?_
  rw [Blocks.final0 (V3 m ρ) c]
  show Blocks.productFirst (W3 m ρ c (Proc.devRef .tc main_arg0)) (W3 m ρ c (Proc.devRef .tc main_arg2)) = _
  rw [arg0_at3, arg2_at3]
  exact (Cert.Bridge.product_first_eq _ _).symm

/-- The first call leaves the source list (edge sources, then every node once) as it was. -/
theorem v5_at4 (c : Dev nD) : W4 m ρ c (Proc.devRef .tc main_v5) = val_main_v5 (F := Ideal) (m ((c : Thread nD τ).loc main_arg1)) :=
  (W4_of_ne m ρ c main_v5 (by decide)).trans (v5_at3 m ρ c)

/-- The first call leaves the destination list (edge destinations, then every node once) as it was. -/
theorem v6_at4 (c : Dev nD) : W4 m ρ c (Proc.devRef .tc main_v6) = val_main_v6 (F := Ideal) (m ((c : Thread nD τ).loc main_arg1)) :=
  (W4_of_ne m ρ c main_v6 (by decide)).trans (v6_at3 m ρ c)

/-- The first call leaves the column of edge weights deg^(-1/2)[source] · deg^(-1/2)[destination] as it was. -/
theorem v32_at4 (c : Dev nD) : W4 m ρ c (Proc.devRef .tc main_v32) = val_main_v40 (F := Ideal) (m ((c : Thread nD τ).loc main_arg1)) :=
  (W4_of_ne m ρ c main_v32 (by decide)).trans (v32_at3 m ρ c)

/-- The first call leaves the first bias as it was. -/
theorem arg3_at4 (c : Dev nD) : W4 m ρ c (Proc.devRef .tc main_arg3) = (m ((c : Thread nD τ).loc main_arg3)) :=
  (W4_of_ne m ρ c main_arg3 (by decide)).trans (arg3_at3 m ρ c)

/-- The first call leaves the second weights as it was. -/
theorem arg4_at4 (c : Dev nD) : W4 m ρ c (Proc.devRef .tc main_arg4) = (m ((c : Thread nD τ).loc main_arg4)) :=
  (W4_of_ne m ρ c main_arg4 (by decide)).trans (arg4_at3 m ρ c)

/-- The first call leaves the second bias as it was. -/
theorem arg5_at4 (c : Dev nD) : W4 m ρ c (Proc.devRef .tc main_arg5) = (m ((c : Thread nD τ).loc main_arg5)) :=
  (W4_of_ne m ρ c main_arg5 (by decide)).trans (arg5_at3 m ρ c)

/-! ## Entering the first bias-and-clamp call -/

/-- The first aggregation: gather the source rows of the linear map, scale each by its edge weight, add into the destination rows. -/
theorem agg1_at5 (c : Dev nD) : W5 m ρ c (Proc.devRef .tc main_v45) = val_main_v45 (F := Ideal) (m ((c : Thread nD τ).loc main_arg0)) (m ((c : Thread nD τ).loc main_arg1)) (m ((c : Thread nD τ).loc main_arg2)) := by
  dsimp only [W5, hostOps1]
  after_results_simp
  rw [lin1_at4, v5_at4, v6_at4, v32_at4]
  rfl

/-- The first bias as one row. -/
theorem bias1_at5 (c : Dev nD) : W5 m ρ c (Proc.devRef .tc main_v46) = shapeCast S1x16 (m ((c : Thread nD τ).loc main_arg3)) Gen.shapeCasts_S16_S1x16 := by
  dsimp only [W5, hostOps1]
  after_results_simp
  rw [arg3_at4]
  rfl

/-- The first aggregation's stretch leaves the source list (edge sources, then every node once) as it was. -/
theorem v5_at5 (c : Dev nD) : W5 m ρ c (Proc.devRef .tc main_v5) = val_main_v5 (F := Ideal) (m ((c : Thread nD τ).loc main_arg1)) := by
  dsimp only [W5, hostOps1]
  after_results_simp
  exact v5_at4 m ρ c

/-- The first aggregation's stretch leaves the destination list (edge destinations, then every node once) as it was. -/
theorem v6_at5 (c : Dev nD) : W5 m ρ c (Proc.devRef .tc main_v6) = val_main_v6 (F := Ideal) (m ((c : Thread nD τ).loc main_arg1)) := by
  dsimp only [W5, hostOps1]
  after_results_simp
  exact v6_at4 m ρ c

/-- The first aggregation's stretch leaves the column of edge weights deg^(-1/2)[source] · deg^(-1/2)[destination] as it was. -/
theorem v32_at5 (c : Dev nD) : W5 m ρ c (Proc.devRef .tc main_v32) = val_main_v40 (F := Ideal) (m ((c : Thread nD τ).loc main_arg1)) := by
  dsimp only [W5, hostOps1]
  after_results_simp
  exact v32_at4 m ρ c

/-- The first aggregation's stretch leaves the second weights as it was. -/
theorem arg4_at5 (c : Dev nD) : W5 m ρ c (Proc.devRef .tc main_arg4) = (m ((c : Thread nD τ).loc main_arg4)) := by
  dsimp only [W5, hostOps1]
  after_results_simp
  exact arg4_at4 m ρ c

/-- The first aggregation's stretch leaves the second bias as it was. -/
theorem arg5_at5 (c : Dev nD) : W5 m ρ c (Proc.devRef .tc main_arg5) = (m ((c : Thread nD τ).loc main_arg5)) := by
  dsimp only [W5, hostOps1]
  after_results_simp
  exact arg5_at4 m ρ c

/-! ## Leaving the first bias-and-clamp call, which the second product call enters -/

/-- The hidden features: the first aggregation plus the first bias, clamped below at zero. -/
theorem hidden_at6 (c : Dev nD) : W6 m ρ c (Proc.devRef .tc main_v47) = val_main_v49 (F := Ideal) (m ((c : Thread nD τ).loc main_arg0)) (m ((c : Thread nD τ).loc main_arg1)) (m ((c : Thread nD τ).loc main_arg2)) (m ((c : Thread nD τ).loc main_arg3)) := by
  refine (W6_arr m ρ c 2).trans ?_
  rw [Blocks.final1 (V5 m ρ) c]
  show Blocks.biasReluFirst (W5 m ρ c (Proc.devRef .tc main_v45)) (W5 m ρ c (Proc.devRef .tc main_v46)) = _
  rw [agg1_at5, bias1_at5]
  exact (Cert.Bridge.bias_relu_first_eq _ _ _ _).symm

/-- The first bias-and-clamp call leaves the source list (edge sources, then every node once) as it was. -/
theorem v5_at6 (c : Dev nD) : W6 m ρ c (Proc.devRef .tc main_v5) = val_main_v5 (F := Ideal) (m ((c : Thread nD τ).loc main_arg1)) :=
  (W6_of_ne m ρ c main_v5 (by decide)).trans (v5_at5 m ρ c)

/-- The first bias-and-clamp call leaves the destination list (edge destinations, then every node once) as it was. -/
theorem v6_at6 (c : Dev nD) : W6 m ρ c (Proc.devRef .tc main_v6) = val_main_v6 (F := Ideal) (m ((c : Thread nD τ).loc main_arg1)) :=
  (W6_of_ne m ρ c main_v6 (by decide)).trans (v6_at5 m ρ c)

/-- The first bias-and-clamp call leaves the column of edge weights deg^(-1/2)[source] · deg^(-1/2)[destination] as it was. -/
theorem v32_at6 (c : Dev nD) : W6 m ρ c (Proc.devRef .tc main_v32) = val_main_v40 (F := Ideal) (m ((c : Thread nD τ).loc main_arg1)) :=
  (W6_of_ne m ρ c main_v32 (by decide)).trans (v32_at5 m ρ c)

/-- The first bias-and-clamp call leaves the second weights as it was. -/
theorem arg4_at6 (c : Dev nD) : W6 m ρ c (Proc.devRef .tc main_arg4) = (m ((c : Thread nD τ).loc main_arg4)) :=
  (W6_of_ne m ρ c main_arg4 (by decide)).trans (arg4_at5 m ρ c)

/-- The first bias-and-clamp call leaves the second bias as it was. -/
theorem arg5_at6 (c : Dev nD) : W6 m ρ c (Proc.devRef .tc main_arg5) = (m ((c : Thread nD τ).loc main_arg5)) :=
  (W6_of_ne m ρ c main_arg5 (by decide)).trans (arg5_at5 m ρ c)

/-! ## Leaving the second product call -/

/-- The second call leaves the second layer's linear map of the hidden features. -/
theorem lin2_at7 (c : Dev nD) : W7 m ρ c (Proc.devRef .tc main_v48) = val_main_v78 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W7_arr m ρ c 2).trans ?_
  rw [Blocks.final2 (V6 m ρ) c]
  show Blocks.productSecond (W6 m ρ c (Proc.devRef .tc main_v47)) (W6 m ρ c (Proc.devRef .tc main_arg4)) = _
  rw [hidden_at6, arg4_at6]
  exact (Cert.Bridge.product_second_eq _ _ _ _ _).symm

/-- The second product call leaves the source list (edge sources, then every node once) as it was. -/
theorem v5_at7 (c : Dev nD) : W7 m ρ c (Proc.devRef .tc main_v5) = val_main_v5 (F := Ideal) (m ((c : Thread nD τ).loc main_arg1)) :=
  (W7_of_ne m ρ c main_v5 (by decide)).trans (v5_at6 m ρ c)

/-- The second product call leaves the destination list (edge destinations, then every node once) as it was. -/
theorem v6_at7 (c : Dev nD) : W7 m ρ c (Proc.devRef .tc main_v6) = val_main_v6 (F := Ideal) (m ((c : Thread nD τ).loc main_arg1)) :=
  (W7_of_ne m ρ c main_v6 (by decide)).trans (v6_at6 m ρ c)

/-- The second product call leaves the column of edge weights deg^(-1/2)[source] · deg^(-1/2)[destination] as it was. -/
theorem v32_at7 (c : Dev nD) : W7 m ρ c (Proc.devRef .tc main_v32) = val_main_v40 (F := Ideal) (m ((c : Thread nD τ).loc main_arg1)) :=
  (W7_of_ne m ρ c main_v32 (by decide)).trans (v32_at6 m ρ c)

/-- The second product call leaves the second bias as it was. -/
theorem arg5_at7 (c : Dev nD) : W7 m ρ c (Proc.devRef .tc main_arg5) = (m ((c : Thread nD τ).loc main_arg5)) :=
  (W7_of_ne m ρ c main_arg5 (by decide)).trans (arg5_at6 m ρ c)

/-! ## Entering the second bias-and-clamp call -/

/-- The second aggregation: gather the source rows of the second linear map, scale each by its edge weight, add into the
    destination rows. The reference rebuilds the edge lists and the weights for this layer from the same edge array by the
    same operations, so its terms are these. -/
theorem agg2_at8 (c : Dev nD) : W8 m ρ c (Proc.devRef .tc main_v60) = val_main_v91 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  dsimp only [W8, hostOps3]
  after_results_simp
  rw [lin2_at7, v5_at7, v6_at7, v32_at7]
  rfl

/-- The second bias as one row. -/
theorem bias2_at8 (c : Dev nD) : W8 m ρ c (Proc.devRef .tc main_v61) = shapeCast S1x128 (m ((c : Thread nD τ).loc main_arg5)) Gen.shapeCasts_S128_S1x128 := by
  dsimp only [W8, hostOps3]
  after_results_simp
  rw [arg5_at7]
  rfl

/-! ## The result -/

/-- THE RESULT ARRAY: the second aggregation plus the second bias, clamped below at zero — the reference's result term. -/
theorem out_at9 (c : Dev nD) : W9 m ρ c (Proc.devRef .tc main_v62)
    = val_main_v95 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W9_arr m ρ c 2).trans ?_
  rw [Blocks.final3 (V8 m ρ) c]
  show Blocks.biasReluSecond (W8 m ρ c (Proc.devRef .tc main_v60)) (W8 m ρ c (Proc.devRef .tc main_v61)) = _
  rw [agg2_at8, bias2_at8]
  exact (Cert.Bridge.bias_relu_second_eq _ _ _ _ _ _).symm

end Cert.KernelIdeal.Chain

end
-- ==== Proof.Claims.lean ====
/-
  The five claims. The three frames: the two kernel programs by their generated frame certificates, the reference by its
  run with the result dropped. The idealization rewrote nothing, so there is nothing to preserve. The value claim: the
  kernel program's result buffer ends at the reference's result term of the same six arrays — two graph-convolution
  layers, each a linear map, a degree-normalised gather / scatter-add over the edges with self loops, a bias and a clamp
  at zero — because each product call assembles, block by block, the sum the reference's one matrix product is over the
  extended reals, each bias call computes max(a + b, 0) entry by entry as the reference does, and the host operations
  between the calls are the reference's own.
-/
import proofs.«157085_j30726196036175_1_alg».proof.Defs
import proofs.«157085_j30726196036175_1_alg».proof.Proof.Gen.Kernel
import proofs.«157085_j30726196036175_1_alg».proof.Proof.Gen.Kernel.Frame
import proofs.«157085_j30726196036175_1_alg».proof.Proof.Gen.KernelIdeal
import proofs.«157085_j30726196036175_1_alg».proof.Proof.Gen.KernelIdeal.Frame
import proofs.«157085_j30726196036175_1_alg».proof.Proof.Gen.ReferenceIdeal
import proofs.«157085_j30726196036175_1_alg».proof.Proof.Gen.Pre_finite_inputs
import proofs.«157085_j30726196036175_1_alg».proof.Proof.RefReadP
import proofs.«157085_j30726196036175_1_alg».proof.Proof.Chain
import proofs.«157085_j30726196036175_1_alg».proof.Proof.KernelRun

noncomputable section

namespace Cert.Proof.Claims

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both programs end with the same result: the kernel program's result buffer is, by the chain of its nine stretches, the
    reference's result term of the kernel's arguments, and the reference's run ends at that term of its own arguments,
    which agree. -/
theorem algebraic : Cert.algebraic_KernelIdeal_ReferenceIdeal := by
  intro m ρ m' ρ' _ hagree
  refine ⟨fun c => Cert.KernelIdeal.Gen.W9 m ρ c (Proc.devRef .tc Cert.KernelIdeal.main_v62), Cert.KernelIdeal.Named.run m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5⟩ := hagree c
  rw [Cert.ReferenceIdeal.ReadP.val_main_v95_eq, h0, h1, h2, h3, h4, h5]
  exact (Cert.KernelIdeal.Chain.out_at9 m ρ c).symm

end Cert.Proof.Claims

end
-- ==== Proof.lean ====
/-
  Two layers of graph convolution on 100000 nodes and 1.6 million edges, as a TPU program of four tiled calls among host
  gather / scatter operations, against its plain reference: the same result, element by element, over the extended reals.
  Each layer is H ↦ max(Â (H W) + b, 0), where Â adds a self loop to every node and weighs edge (s, d) by
  deg(s)^(-1/2) · deg(d)^(-1/2). The kernel program computes H W in twenty row blocks on the matrix unit (bf16 operands,
  f32 accumulation — the identity and the exact sum over the extended reals) and the bias-and-clamp in twenty row blocks
  too; the aggregation by Â stays on the host in both programs. Proof/Payloads.lean reads one grid point's arithmetic at
  an entry, Proof/Region0–3.lean each call's output as one whole-array function, Proof/Bridge.lean identifies these with
  the reference's dense stages, Proof/Chain.lean follows the kernel program's buffers boundary by boundary,
  Proof/Claims.lean states the five claims.
-/
import proofs.«157085_j30726196036175_1_alg».proof.Defs
import proofs.«157085_j30726196036175_1_alg».proof.Proof.Gen.Kernel
import proofs.«157085_j30726196036175_1_alg».proof.Proof.Gen.KernelIdeal
import proofs.«157085_j30726196036175_1_alg».proof.Proof.Gen.ReferenceIdeal
import proofs.«157085_j30726196036175_1_alg».proof.Proof.Gen.Pre_finite_inputs
import proofs.«157085_j30726196036175_1_alg».proof.Proof.Claims
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Claims.frame_kernel, Claims.frame_kernel_ideal, Claims.frame_reference_ideal, Claims.preserves, Claims.algebraic⟩

end Cert.Proof

end
